-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2049 : Shape := ⟨2, ![2048, 2049]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2049 : S_.BroadcastsInDim S2048x2049 (![] : Fin 0 → Fin S2048x2049.rank)
  reducesTo_S2048x2049_S_d0_1 : S2048x2049.ReducesTo [0, 1] S_

variable [Facts]

def fn {F : FTy → Type} [FloatOps F] (main_arg0 : FVec F S4x2048x2048 .f32) (main_arg1 : FVec F S2048x2049 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2049 .f32 := Host.absf main_arg1
  let main_cst_0 : FVec F S_ .f32 := constant S_ .f32 0x7F800000#32
  let main_v5 : FVec F S2048x2049 .f32 := broadcastInDim S2048x2049 ![] bcast_S_S2048x2049 main_cst_0
  let main_v6 : IVec S2048x2049 1 := cmpf .olt main_v4 main_v5
  let main_c_1 : IVec S_ 1 := constantI S_ 1 1#1
  let main_v7 : IVec S_ 1 := (fun x v => Host.reduce IntOp.andi x v reducesTo_S2048x2049_S_d0_1 h_S_) main_v6 main_c_1
  let main_v8 : IVec S_ 1 := andi main_v3 main_v7
  main_v8
-- ==== Kernel.lean ====
abbrev S4x2048x2048 : Shape := ⟨3, ![4, 2048, 2048]⟩
abbrev S2048x2049 : Shape := ⟨2, ![2048, 2049]⟩
abbrev S8192x2048 : Shape := ⟨2, ![8192, 2048]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S1x2048 : Shape := ⟨2, ![1, 2048]⟩
abbrev S1024x2048 : Shape := ⟨2, ![1024, 2048]⟩

abbrev nBuf : Space → Nat
  | .hbm => 16
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2049, .f32⟩
  | .hbm, ⟨2, _⟩ => ⟨S8192x2048, .f32⟩
  | .hbm, ⟨3, _⟩ => ⟨S2048x2048, .f32⟩
  | .hbm, ⟨4, _⟩ => ⟨S2048x1, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x2048_S8192x2048 : S4x2048x2048.ShapeCasts S8192x2048
  slices_S2048x2049_S2048x2048_0_0 : S2048x2049.Slices ![0, 0] S2048x2048
  slices_S2048x2049_S2048x1_0_2048 : S2048x2049.Slices ![0, 2048] S2048x1
  shapeCasts_S2048x1_S2048 : S2048x1.ShapeCasts S2048
  bcast_S_S2048 : S_.BroadcastsInDim S2048 (![] : Fin 0 → Fin S2048.rank)
  shapeCasts_S2048_S1x2048 : S2048.ShapeCasts S1x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x2048.size a
  hwx0_4 : ∀ i : grid0.Coords, EltTy.bits .f32 = 32 ∨ (Rect.block (s := S8192x2048) S1024x2048.size (cc0_transform_4 i) (hinb0_4 i)).WholeWords (EltTy.packing .f32)

variable [Facts₀]

def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2049 : Shape := ⟨2, ![2048, 2049]⟩
abbrev S8192x2048 : Shape := ⟨2, ![8192, 2048]⟩
abbrev S_ : Shape := ⟨0, ![]⟩
abbrev S8192x1 : Shape := ⟨2, ![8192, 1]⟩
abbrev S8192x2049 : Shape := ⟨2, ![8192, 2049]⟩
abbrev S2049x2048 : Shape := ⟨2, ![2049, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2049, .f32⟩
  | .hbm, ⟨2, _⟩ => ⟨S8192x2048, .f32⟩
  | .hbm, ⟨3, _⟩ => ⟨S_, .f32⟩
  | .hbm, ⟨4, _⟩ => ⟨S8192x1, .f32⟩
  | .hbm, ⟨5, _⟩ => ⟨S8192x2049, .f32⟩
  | .hbm, ⟨6, _⟩ => ⟨S2049x2048, .f32⟩
  | .hbm, ⟨7, _⟩ => ⟨S8192x2048, .f32⟩
  | .hbm, ⟨8, _⟩ => ⟨S8192x2049, .f32⟩
  | .hbm, ⟨9, _⟩ => ⟨S2048x2049, .f32⟩
  | .hbm, ⟨10, _⟩ => ⟨S2049x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S4x2048x2048_S8192x2048 : S4x2048x2048.ShapeCasts S8192x2048
  bcast_S_S8192x1 : S_.BroadcastsInDim S8192x1 (![] : Fin 0 → Fin S8192x1.rank)
  concatenates_S8192x2048_S8192x1_S8192x2049_d1 : Shape.Concatenates [S8192x2048, S8192x1] S8192x2049 1
  transposes_S2048x2049_S2049x2048_1_0 : S2048x2049.Transposes [1, 0] S2049x2048
  bcast_S_S8192x2048 : S_.BroadcastsInDim S8192x2048 (![] : Fin 0 → Fin S8192x2048.rank)
  dot_S8192x2049_S2049x2048_S8192x2048_1_0_0_1_n_n_wf : DotDims.WF S8192x2049 S2049x2048 S8192x2048 [1] [0] [0] [1] [] []

variable [Facts₀]

def dot_S8192x2049_S2049x2048_S8192x2048_1_0_0_1_n_n : DotDims S8192x2049 S2049x2048 S8192x2048 where
  lhsContracting := [1]
  rhsContracting := [0]
  lhsNonContracting := [0]
  rhsNonContracting := [1]
  lhsBatch := []
  rhsBatch := []
  wf := dot_S8192x2049_S2049x2048_S8192x2048_1_0_0_1_n_n_wf

class Facts : Prop extends Facts₀ where

variable [Facts]
-- ==== Proof.Target.lean ====
/-
  The function both programs compute, and the one law of extended-real arithmetic that joins their two arrangements.

  Write X for the input flattened to 8192 rows of 2048 entries and W for the weight, 2048 rows of 2049 entries
  whose last column is the bias: b(o) = W(o, 2048). For a row n and an output feature o put
      A(n,o) = Σ_{k<2048} X(n,k) · W(o,k),        B(n,o) = Σ_{k<2048} |X(n,k)| · |W(o,k)|.
  The kernel forms            ½·(A + B) + ½·(b + |b|).
  The reference appends a column of ones to X and contracts over all 2049 columns,
      ½·( Σ_{j<2049} X'(n,j) · W(o,j)  +  Σ_{j<2049} |X'(n,j)| · |W(o,j)| ),   X'(n,j) = X(n,j) for j < 2048, X'(n,2048) = 1.
  Splitting the last term off each sum gives ½·((A + 1·b) + (B + |1|·|b|)). Addition of extended reals is
  commutative and associative, 1·b = b and |1| = 1, and multiplication by a nonnegative FINITE factor distributes
  over every sum of extended reals (also over +∞ + −∞, which is −∞ on both sides). So the two arrangements agree at
  every extended-real input: no finiteness of X or W is used.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.HalfRelu

/-- The flattened input: 8192 rows of 2048 entries. -/
abbrev SX : Shape := ⟨2, ![8192, 2048]⟩
/-- The weight: 2048 output features, each with 2048 coefficients and a bias in column 2048. -/
abbrev SW : Shape := ⟨2, ![2048, 2049]⟩

/-- The f32 word both programs scale by, read as an extended real. -/
abbrev half : EReal := Ideal.ofBits .f32 0x3F000000#32

/-- That word denotes the real number 1/2. -/
theorem half_eq : half = ((1 / 2 : ℝ) : EReal) := by
  simp [half, Ideal.ofBits, Ideal.ieee, -EReal.coe_mul]; norm_num

/-- The f32 word of the reference's column of ones denotes 1. -/
theorem one_eq : Ideal.ofBits .f32 0x3F800000#32 = (1 : EReal) := by
  simp [Ideal.ofBits, Ideal.ieee, -EReal.coe_mul]; norm_num

theorem half_nonneg : (0 : EReal) ≤ half := by
  rw [half_eq]; exact EReal.coe_nonneg.mpr (by norm_num)

theorem half_ne_top : half ≠ ⊤ := by
  rw [half_eq]; exact EReal.coe_ne_top _

/-- The absolute value of an extended real: the larger of a and −a. -/
abbrev eabs (a : EReal) : EReal := max a (-a)

theorem eabs_one : eabs (1 : EReal) = 1 := by
  refine max_eq_left ?_
  rw [← EReal.coe_one, ← EReal.coe_neg]
  exact EReal.coe_le_coe_iff.mpr (by norm_num)

/-- A(n,o): row n of X against the 2048 coefficients of feature o. -/
def dotW (X : SX.Idx → EReal) (W : SW.Idx → EReal) (n : Fin 8192) (o : Fin 2048) : EReal :=
  ∑ k : Fin 2048, X (ix2 n k) * W (ix2 o k.castSucc)

/-- B(n,o): the same sum over absolute values. -/
def dotAbs (X : SX.Idx → EReal) (W : SW.Idx → EReal) (n : Fin 8192) (o : Fin 2048) : EReal :=
  ∑ k : Fin 2048, eabs (X (ix2 n k)) * eabs (W (ix2 o k.castSucc))

/-- b(o): the bias of feature o, the weight's last column. -/
def bias (W : SW.Idx → EReal) (o : Fin 2048) : EReal := W (ix2 o (Fin.last 2048))

/-- The result at row n, feature o:  ½·(A + B) + ½·(b + |b|). -/
def G (X : SX.Idx → EReal) (W : SW.Idx → EReal) : SX.Idx → EReal := fun i =>
  half * (dotW X W (i 0) (i 1) + dotAbs X W (i 0) (i 1)) + half * (bias W (i 1) + eabs (bias W (i 1)))

/-- THE LAW. Two sums over n + 1 terms whose last left factor is 1, scaled by ½ after they are added, are ½ times
    the two sums over the first n terms plus ½ times (b + |b|), b the last right factor. -/
theorem split_last {n : ℕ} (xs ws : Fin (n + 1) → EReal) (x w : Fin n → EReal) (b : EReal)
    (hx : ∀ k : Fin n, xs k.castSucc = x k) (hw : ∀ k : Fin n, ws k.castSucc = w k)
    (h1 : xs (Fin.last n) = 1) (hb : ws (Fin.last n) = b) :
    half * ((∑ j, xs j * ws j) + (∑ j, eabs (xs j) * eabs (ws j)))
      = half * ((∑ k, x k * w k) + (∑ k, eabs (x k) * eabs (w k))) + half * (b + eabs b) := by
  rw [Fin.sum_univ_castSucc (f := fun j => xs j * ws j), Fin.sum_univ_castSucc (f := fun j => eabs (xs j) * eabs (ws j))]
  simp only [hx, hw, h1, hb]
  rw [eabs_one, one_mul, one_mul, add_add_add_comm]
  exact EReal.left_distrib_of_nonneg_of_ne_top half_nonneg half_ne_top _ _

end Cert.HalfRelu

end
-- ==== Proof.StagedArrays.lean ====
/-
  What the kernel's four input windows stage, as the region finds them, read at an index.

  Before the region the host flattens the input, cuts the weight into its 2048 coefficient columns and its bias
  column, and prepares three arrays from them: the coefficients W(o,k); their absolute values |W(o,k)|; and one row
  holding ½·(b(o) + |b(o)|) for every feature o. A change of float format is the identity on the extended reals, so
  the two narrowed arrays hold exactly those values.
-/
import proofs.«156407_j59313498358108_2_alg».proof.Proof.Gen.KernelIdeal.Frame
import proofs.«156407_j59313498358108_2_alg».proof.Proof.Target
import Idealize.ShloMosaic.Lib.Pipeline.Value
import Idealize.ShloMosaic.Lib.ValueIdx
import Idealize.ShloMosaic.Lib.StableHlo.Run

noncomputable section

open Idealize.ShloMosaic Idealize.ShloMosaic.TcCoe Idealize.ShloMosaic.ValueIdx Idealize.SL.Sem
open scoped BigOperators

namespace Cert.HalfRelu.Staged

open Cert.KernelIdeal Cert.KernelIdeal.Gen Cert.HalfRelu

variable (m : (ℓ : Loc nD τ sig) → Buf (Elt Ideal) ℓ) (c : Dev nD)

/-- The input flattened to 8192 rows: the first argument as launched, re-laid row-major. -/
abbrev Xf : S8192x2048.Idx → EReal :=
  shapeCast S8192x2048 (m ((c : Thread nD τ).loc main_arg0)) shapeCasts_S4x2048x2048_S8192x2048

/-- The weight: the second argument as launched. -/
abbrev Wt : S2048x2049.Idx → EReal := m ((c : Thread nD τ).loc main_arg1)

/-- Window 0 stages the flattened input. -/
theorem staged_x : (V m c main_v0 : S8192x2048.Idx → EReal) = Xf m c := by
  dsimp only [Gen.V, Gen.hostOps0]; after_results <;> rfl

/-- Window 1 stages the weight's coefficient columns: entry (o,k) is W(o,k). -/
theorem staged_w (o k : Fin 2048) : (V m c main_v9 : S2048x2048.Idx → EReal) (ix2 o k) = Wt m c (ix2 o k.castSucc) := by
  have e : (V m c main_v9 : S2048x2048.Idx → EReal)
      = truncf (F := Ideal) .bf16 (extractStridedSlice S2048x2048 ![0, 0] (Wt m c) slices_S2048x2049_S2048x2048_0_0) bitsLt_bf16_f32 := by
    dsimp only [Gen.V, Gen.hostOps0]; after_results <;> rfl
  rw [e, truncf_apply]
  exact extractStridedSlice_apply _ _ _ _ (ix2 o k.castSucc) (fun a => match a with
    | ⟨0, _⟩ => (Nat.zero_add _).symm
    | ⟨1, _⟩ => (Nat.zero_add _).symm)

/-- Window 2 stages their absolute values: entry (o,k) is |W(o,k)|. -/
theorem staged_wabs (o k : Fin 2048) :
    (V m c main_v11 : S2048x2048.Idx → EReal) (ix2 o k) = eabs (Wt m c (ix2 o k.castSucc)) := by
  have e : (V m c main_v11 : S2048x2048.Idx → EReal)
      = truncf (F := Ideal) .bf16 (Host.absf (F := Ideal) (extractStridedSlice S2048x2048 ![0, 0] (Wt m c) slices_S2048x2049_S2048x2048_0_0)) bitsLt_bf16_f32 := by
    dsimp only [Gen.V, Gen.hostOps0]; after_results <;> rfl
  rw [e, truncf_apply]
  show FloatOps.hostAbsf (F := Ideal) (extractStridedSlice S2048x2048 ![0, 0] (Wt m c) slices_S2048x2049_S2048x2048_0_0 (ix2 o k)) = _
  rw [extractStridedSlice_apply _ _ _ _ (ix2 o k.castSucc) (fun a => match a with
    | ⟨0, _⟩ => (Nat.zero_add _).symm
    | ⟨1, _⟩ => (Nat.zero_add _).symm)]
  rfl

/-- The bias column as a vector: entry o is b(o) = W(o, 2048). -/
theorem bias_vec (o : Fin 2048) :
    shapeCast S2048 (extractStridedSlice S2048x1 ![0, 2048] (Wt m c) slices_S2048x2049_S2048x1_0_2048) shapeCasts_S2048x1_S2048 (ix1 o)
      = bias (Wt m c) o := by
  rw [shapeCast_apply _ _ (ix1 o) (ix2 o (0 : Fin 1)) (by
    rewrite [Shape.rowMajor_val_two, Shape.rowMajor_val_one]; show o.val * 1 + 0 = o.val; omega)]
  exact extractStridedSlice_apply _ _ _ _ (ix2 o (Fin.last 2048)) (fun a => match a with
    | ⟨0, _⟩ => (Nat.zero_add _).symm
    | ⟨1, _⟩ => rfl)

/-- Window 3 stages one row: entry (0,o) is ½·(b(o) + |b(o)|). -/
theorem staged_bias (o : Fin 2048) :
    (V m c main_v8 : S1x2048.Idx → EReal) (ix2 (0 : Fin 1) o) = half * (bias (Wt m c) o + eabs (bias (Wt m c) o)) := by
  have e : (V m c main_v8 : S1x2048.Idx → EReal)
      = shapeCast S1x2048 (mulf (F := Ideal) (broadcastInDim S2048 ![] bcast_S_S2048 (constant (F := Ideal) S_ .f32 0x3F000000#32))
          (addf (F := Ideal) (shapeCast S2048 (extractStridedSlice S2048x1 ![0, 2048] (Wt m c) slices_S2048x2049_S2048x1_0_2048) shapeCasts_S2048x1_S2048)
            (Host.absf (F := Ideal) (shapeCast S2048 (extractStridedSlice S2048x1 ![0, 2048] (Wt m c) slices_S2048x2049_S2048x1_0_2048) shapeCasts_S2048x1_S2048))))
          shapeCasts_S2048_S1x2048 := by
    dsimp only [Gen.V, Gen.hostOps0]; after_results <;> rfl
  rw [e, shapeCast_apply _ _ (ix2 (0 : Fin 1) o) (ix1 o) (by
    rewrite [Shape.rowMajor_val_two, Shape.rowMajor_val_one]; show o.val = 0 * 2048 + o.val; omega)]
  rw [mulf_apply, addf_apply]
  rw [broadcastInDim_apply _ bcast_S_S2048 _ (ix1 o) ix0 (fun a => a.elim0), constant_apply]
  show half * (_ + FloatOps.hostAbsf (F := Ideal) _) = _
  rw [bias_vec]
  rfl

end Cert.HalfRelu.Staged

end
-- ==== Proof.BlockValue.lean ====
/-
  What the kernel body computes for one block, entry by entry.

  The body loads a block of 1024 rows of X, the whole coefficient array, the whole array of absolute coefficients and
  the one prepared bias row, and stores, at row p and feature q of the block,
      ½·( Σ_k x(p,k)·w(q,k)  +  Σ_k |x(p,k)|·a(q,k) )  +  r(0,q),
  where w, a and r are the three loaded arrays. Both matrix products contract the SECOND axis of both operands (x
  against the rows of w, not its columns) into a zero accumulator, so each is the plain sum over k; narrowing a float
  is the identity on the extended reals.
-/
import proofs.«156407_j59313498358108_2_alg».proof.Proof.Gen.KernelIdeal.Skeleton
import proofs.«156407_j59313498358108_2_alg».proof.Proof.Target
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.HalfRelu.Block

open Cert.KernelIdeal Cert.KernelIdeal.Gen Cert.HalfRelu

/-- The body's contraction: a block of rows against the coefficient array, second axis against second axis. -/
abbrev D := dot_S1024x2048_S2048x2048_S1024x2048_1_1_0_0_n_n

/-- The left operand is read at the output's row. -/
theorem lhs_row (j : S1024x2048.Idx) (q : D.contr.Idx) : (D.lhsIdx j q 0).val = (j 0).val := by
  unfold DotDims.lhsIdx
  rw [dif_neg (show ¬(0 : Fin S1024x2048.rank) ∈ D.lhsBatch by decide), dif_pos (show (0 : Fin S1024x2048.rank) ∈ D.lhsNonContracting by decide)]
  rfl

/-- The right operand is read at the row the output's COLUMN names (the feature). -/
theorem rhs_row (j : S1024x2048.Idx) (q : D.contr.Idx) : (D.rhsIdx j q 0).val = (j 1).val := by
  unfold DotDims.rhsIdx
  rw [dif_neg (show ¬(0 : Fin S2048x2048.rank) ∈ D.rhsBatch by decide), dif_pos (show (0 : Fin S2048x2048.rank) ∈ D.rhsNonContracting by decide)]
  rfl

/-- The product into a zero accumulator, at row p and feature q: the sum over k of l(p,k)·r(q,k). -/
theorem matmul_at (l : FVec Ideal S1024x2048 .bf16) (r : FVec Ideal S2048x2048 .bf16) (p : Fin 1024) (q : Fin 2048) :
    matmul (F := Ideal) D none l r (constant (F := Ideal) S1024x2048 .f32 0x00000000#32) (ix2 p q)
      = ∑ k : Fin 2048, l (ix2 p k) * r (ix2 q k) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 2048 rfl rfl).symm k) = ix2 q k := funext fun a => Fin.ext (by
    match a with
    | ⟨0, _⟩ => exact rhs_row _ _
    | ⟨1, _⟩ => exact (D.rhsIdx_val_of_single rfl _ _).trans hk)
  rw [el, er]

/-- The one row r, repeated down the block: at (p,q) it is r(0,q). -/
theorem bias_row_at (x3 : Vec Ideal S1x2048 .f32) (p : Fin 1024) (q : Fin 2048) :
    broadcastTo S1024x2048 x3 broadcasts_S1x2048_S1024x2048 (ix2 p q) = x3 (ix2 (0 : Fin 1) q) :=
  broadcastTo_apply x3 broadcasts_S1x2048_S1024x2048 (ix2 p q) (ix2 (0 : Fin 1) q)
    (fun a => match a with | ⟨0, _⟩ => rfl | ⟨1, _⟩ => rfl)

/-- THE STORED VALUE at row p, feature q of a block, from the four loaded arrays. -/
theorem payload_at (x0 : Vec Ideal S1024x2048 .f32) (x1 x2 : Vec Ideal S2048x2048 .bf16) (x3 : Vec Ideal S1x2048 .f32)
    (p : Fin 1024) (q : Fin 2048) :
    k0_pay1 (F := Ideal) x0 x1 x2 x3 (ix2 p q)
      = half * ((∑ k : Fin 2048, x0 (ix2 p k) * x1 (ix2 q k)) + (∑ k : Fin 2048, eabs (x0 (ix2 p k)) * x2 (ix2 q k)))
          + x3 (ix2 (0 : Fin 1) q) := by
  unfold k0_pay1
  simp only [shapeCast_self]
  rw [addf_apply, mulf_apply, broadcast_apply, addf_apply, matmul_at, matmul_at, bias_row_at]
  rfl

end Cert.HalfRelu.Block

end
-- ==== Proof.ArrayValue.lean ====
/-
  From blocks to the array: after the kernel's run its result array is the target function G.

  The grid has 8 points. Point t loads rows 1024·t … 1024·t + 1023 of the flattened input and writes the same rows
  of the result; the coefficient array, the array of absolute coefficients and the bias row are the same whole arrays
  at every point. So what point t writes back at row p, feature q of its block is the body's value there
  (`payload_at`) with x the rows of X from 1024·t on, w = W's coefficients, a = |W|'s and r = ½·(b + |b|): that is G
  at row 1024·t + p, feature q. Every row r of the result lies in the block of point r / 1024, so the blocks cover
  the array and the array ends as G everywhere.
-/
import proofs.«156407_j59313498358108_2_alg».proof.Proof.Gen.KernelIdeal.Value
import proofs.«156407_j59313498358108_2_alg».proof.Proof.StagedArrays
import proofs.«156407_j59313498358108_2_alg».proof.Proof.BlockValue

noncomputable section

open Idealize.ShloMosaic Idealize.ShloMosaic.TcCoe Idealize.ShloMosaic.ValueIdx Idealize.SL.Sem
open Idealize.ShloMosaic.Pipeline (Dat)
open scoped BigOperators

namespace Cert.HalfRelu.Array

open Cert.KernelIdeal Cert.KernelIdeal.Gen Cert.HalfRelu Cert.HalfRelu.Staged Cert.HalfRelu.Block

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point t, decided over the 8 points: the input rows and the result rows are block
    t of their arrays, the three prepared arrays are always their one block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 8 := by
  have h : t.val < grid0.N := t.isLt
  rwa [N_0] at h

/-- The row of the whole arrays that row p of point t's block is. -/
def row (t : Fin cfg0.N) (p : Fin 1024) : Fin 8192 := ⟨t.val * 1024 + p.val, by have := point_lt t; have := p.isLt; omega⟩

/-! ### Each window's block at point t, read where the body reads it -/

/-- Row p of the input block is row 1024·t + p of the flattened input. -/
theorem in_block (c : Dev nD) (t : Fin cfg0.N) (p : Fin 1024) (k : Fin 2048) :
    iblk m c 0 t (ix2 p k) = Xf m c (ix2 (row t p) k) := by
  obtain ⟨e0, e1, -⟩ := block_positions t
  show V m c main_v0 (((cfg0.win 0).blk t).view.emb (ix2 p k)) = _
  rw [staged_x]
  refine congrArg (Xf m c) (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * k.val = k.val; omega

/-- The coefficient block is the whole coefficient array: entry (q,k) is W(q,k). -/
theorem coef_block (c : Dev nD) (t : Fin cfg0.N) (q k : Fin 2048) :
    iblk m c 1 t (ix2 q k) = Wt m c (ix2 q k.castSucc) := by
  obtain ⟨-, -, e2, e3, -⟩ := block_positions t
  show V m c main_v9 (((cfg0.win 1).blk t).view.emb (ix2 q k)) = _
  rw [← staged_w m c q k]
  refine congrArg (V m c main_v9) (funext fun a => Fin.ext ?_)
  match a with
  | ⟨0, _⟩ => show win0_1.index t (0 : Fin 2) * 2048 + 1 * q.val = q.val; omega
  | ⟨1, _⟩ => show win0_1.index t (1 : Fin 2) * 2048 + 1 * k.val = k.val; omega

/-- The block of absolute coefficients: entry (q,k) is |W(q,k)|. -/
theorem abs_block (c : Dev nD) (t : Fin cfg0.N) (q k : Fin 2048) :
    iblk m c 2 t (ix2 q k) = eabs (Wt m c (ix2 q k.castSucc)) := by
  obtain ⟨-, -, -, -, e4, e5, -⟩ := block_positions t
  show V m c main_v11 (((cfg0.win 2).blk t).view.emb (ix2 q k)) = _
  rw [← staged_wabs m c q k]
  refine congrArg (V m c main_v11) (funext fun a => Fin.ext ?_)
  match a with
  | ⟨0, _⟩ => show win0_2.index t (0 : Fin 2) * 2048 + 1 * q.val = q.val; omega
  | ⟨1, _⟩ => show win0_2.index t (1 : Fin 2) * 2048 + 1 * k.val = k.val; omega

/-- The bias row: entry (0,q) is ½·(b(q) + |b(q)|). -/
theorem bias_block (c : Dev nD) (t : Fin cfg0.N) (q : Fin 2048) :
    iblk m c 3 t (ix2 (0 : Fin 1) q) = half * (bias (Wt m c) q + eabs (bias (Wt m c) q)) := by
  obtain ⟨-, -, -, -, -, -, e6, e7, -⟩ := block_positions t
  show V m c main_v8 (((cfg0.win 3).blk t).view.emb (ix2 (0 : Fin 1) q)) = _
  rw [← staged_bias m c q]
  refine congrArg (V m c main_v8) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 2048 + 1 * q.val = q.val; omega

/-- Row p, feature q of the result block is row 1024·t + p, feature q of the result. -/
theorem out_block (t : Fin cfg0.N) (p : Fin 1024) (q : Fin 2048) :
    ((cfg0.win 4).blk t).view.emb (ix2 p q) = ix2 (row t p) q := by
  obtain ⟨-, -, -, -, -, -, -, -, e8, e9⟩ := block_positions t
  refine funext fun a => Fin.ext ?_
  match a with
  | ⟨0, _⟩ => show win0_4.index t (0 : Fin 2) * 1024 + 1 * p.val = t.val * 1024 + p.val; omega
  | ⟨1, _⟩ => show win0_4.index t (1 : Fin 2) * 2048 + 1 * q.val = q.val; omega

/-! ### What a point writes back, the cover, the array -/

/-- WHAT POINT t WRITES BACK is block t of G of the flattened input and the weight. -/
theorem flushed_eq (c : Dev nD) (t : Fin cfg0.N) :
    (dats m 0 c).flushed 4 t = ((cfg0.win 4).blk t).view.read (Elt Ideal) (G (Xf m c) (Wt m c)) := by
  rw [Cert.KernelIdeal.Value.flushed4]
  unfold out0_4
  rw [View.canon_unit_zero zero_offsets]
  simp only [View.ld_unit_zero (S := S1024x2048) zero_offsets, View.ld_unit_zero (S := S2048x2048) zero_offsets,
    View.ld_unit_zero (S := S1x2048) zero_offsets]
  funext y
  obtain ⟨p, q, rfl⟩ : ∃ (p : Fin 1024) (q : Fin 2048), y = ix2 p q := ⟨y 0, y 1, eq_ix2 y⟩
  show k0_pay1 (F := Ideal) (iblk m c 0 t) (iblk m c 1 t) (iblk m c 2 t) (iblk m c 3 t) (ix2 p q)
    = G (Xf m c) (Wt m c) (((cfg0.win 4).blk t).view.emb (ix2 p q))
  refine (payload_at (iblk m c 0 t) (iblk m c 1 t) (iblk m c 2 t) (iblk m c 3 t) p q).trans ?_
  rw [out_block, bias_block]
  simp only [in_block, coef_block, abs_block]
  rfl

/-- An index of the result is in point t's block iff each coordinate is in the block's range on its axis. -/
theorem mem_blk (t : Fin cfg0.N) (i : S8192x2048.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v12).slice (win0_4.rect t)).set ↔ _
  rw [View.set_slice_whole, Rect.mem_set_unit]
  exact Iff.rfl

/-- THE COVER: row r of the result is in the block of point r / 1024, which writes back. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : (i 0).val / 1024 < grid0.N := by rw [N_0]; omega
  obtain ⟨-, -, -, -, -, -, -, -, e8, e9⟩ := block_positions ⟨(i 0).val / 1024, hN⟩
  have e8' : win0_4.index ⟨(i 0).val / 1024, hN⟩ (0 : Fin 2) = (i 0).val / 1024 := e8
  refine ⟨⟨(i 0).val / 1024, hN⟩, flush0_4 _, ?_⟩
  rw [mem_blk]
  intro a
  match a with
  | ⟨0, _⟩ =>
    show win0_4.index ⟨(i 0).val / 1024, hN⟩ (0 : Fin 2) * 1024 ≤ (i 0).val
      ∧ (i 0).val < win0_4.index ⟨(i 0).val / 1024, hN⟩ (0 : Fin 2) * 1024 + 1024
    omega
  | ⟨1, _⟩ =>
    show win0_4.index ⟨(i 0).val / 1024, hN⟩ (1 : Fin 2) * 2048 ≤ (i 1).val
      ∧ (i 1).val < win0_4.index ⟨(i 0).val / 1024, hN⟩ (1 : Fin 2) * 2048 + 2048
    omega

/-- THE ARRAY after the run is G of the flattened input and the weight. -/
theorem final (c : Dev nD) : (dats m 0 c).arrAt 4 cfg0.N = G (Xf m c) (Wt m c) :=
  (dats m 0 c).arrAt_eq_of_cover 4 (G (Xf m c) (Wt m c)) (fun t _ => flushed_eq m c t) cover

/-- THE KERNEL'S RUN, read: every weakly fair execution terminates with the result array at G of the flattened first
    argument and the second, both arguments unchanged. -/
theorem run : θ_run defs (onTc (τ := τ) (main (F := Ideal))) ⟨m, fun _ => 0, ρ⟩ fun r => ∀ c : Dev nD,
      r.2.mem ((c : Thread nD τ).loc main_v12) = G (Xf m c) (Wt m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.HalfRelu.Array

end
-- ==== Proof.RefIsTarget.lean ====
/-
  The reference's result is the target function G of the flattened input and the weight.

  Read index by index, the reference's last stage is ½ times the sum of two contractions over the 2049 columns of
  X' = [X | 1] (the flattened input with a column of ones appended) against the transposed weight, the second over
  absolute values. Column j < 2048 of X' is column j of X, column 2048 is the constant 1; row j of the transposed
  weight at feature o is W(o, j). The law `split_last` then peels the last column off both contractions.
-/
import proofs.«156407_j59313498358108_2_alg».proof.Proof.Gen.ReferenceIdeal.Read
import proofs.«156407_j59313498358108_2_alg».proof.Proof.Target

noncomputable section

open Idealize.ShloMosaic Idealize.ShloMosaic.ValueIdx
open scoped BigOperators

namespace Cert.HalfRelu.Ref

open Cert.ReferenceIdeal Cert.ReferenceIdeal.Gen Cert.ReferenceIdeal.Read Cert.HalfRelu

variable (x0 : (⟨S4x2048x2048, .f32⟩ : BufTy).Contents (Elt Ideal)) (x1 : (⟨S2048x2049, .f32⟩ : BufTy).Contents (Elt Ideal))

/-! ### Where each contraction reads its operands: row n of [X | 1] at column j, feature o of the weight at column j -/

theorem lhs_first (n : Fin 8192) (o : Fin 2048) (j : Fin 2049) : lidx_main_v4 (ix2 n o) j = ix2 n j :=
  funext fun a => match a with | ⟨0, _⟩ => rfl | ⟨1, _⟩ => rfl

theorem lhs_second (n : Fin 8192) (o : Fin 2048) (j : Fin 2049) : lidx_main_v8 (ix2 n o) j = ix2 n j :=
  funext fun a => match a with | ⟨0, _⟩ => rfl | ⟨1, _⟩ => rfl

theorem rhs_first (n : Fin 8192) (o : Fin 2048) (j : Fin 2049) : idx_main_v3 (ridx_main_v4 (ix2 n o) j) = ix2 o j :=
  funext fun a => match a with | ⟨0, _⟩ => rfl | ⟨1, _⟩ => rfl

theorem rhs_second (n : Fin 8192) (o : Fin 2048) (j : Fin 2049) : idx_main_v7 (ridx_main_v8 (ix2 n o) j) = ix2 o j :=
  funext fun a => match a with | ⟨0, _⟩ => rfl | ⟨1, _⟩ => rfl

/-- Column k < 2048 of [X | 1] is column k of X. -/
theorem concat_left (n : Fin 8192) (k : Fin 2048) :
    val_main_v2 (F := Ideal) x0 (ix2 n k.castSucc) = val_main_v0 (F := Ideal) x0 (ix2 n k) := by
  unfold val_main_v2
  exact concatenate_pair_apply_left (t := S8192x2049) (s₁ := S8192x2048) (s₂ := S8192x1) (1 : Fin 2) _ _
    concatenates_S8192x2048_S8192x1_S8192x2049_d1 (ix2 n k.castSucc) (rfl : S8192x2048.rank = S8192x2049.rank) (ix2 n k)
    (fun b => match b with | ⟨0, _⟩ => rfl | ⟨1, _⟩ => rfl)

/-- Column 2048 of [X | 1] is the constant 1. -/
theorem concat_last (n : Fin 8192) :
    val_main_v2 (F := Ideal) x0 (ix2 n (Fin.last 2048)) = (1 : EReal) := by
  unfold val_main_v2
  rw [concatenate_pair_apply_right (t := S8192x2049) (s₁ := S8192x2048) (s₂ := S8192x1) (1 : Fin 2) _ _
    concatenates_S8192x2048_S8192x1_S8192x2049_d1 (ix2 n (Fin.last 2048)) (rfl : S8192x2048.rank = S8192x2049.rank)
    (rfl : S8192x1.rank = S8192x2049.rank) (ix2 n (0 : Fin 1))
    (fun b => match b with | ⟨0, _⟩ => fun _ => rfl | ⟨1, _⟩ => fun h => absurd rfl h) rfl]
  rw [val_main_v1_apply, val_main_cst_apply]
  exact one_eq

/-- One term of the first contraction. -/
theorem term_first (n : Fin 8192) (o : Fin 2048) (j : Fin 2049) :
    val_main_v2 (F := Ideal) x0 (lidx_main_v4 (ix2 n o) j) * val_main_v3 (F := Ideal) x1 (ridx_main_v4 (ix2 n o) j)
      = val_main_v2 (F := Ideal) x0 (ix2 n j) * x1 (ix2 o j) := by
  rw [val_main_v3_apply, lhs_first, rhs_first]

/-- One term of the second contraction. -/
theorem term_second (n : Fin 8192) (o : Fin 2048) (j : Fin 2049) :
    val_main_v5 (F := Ideal) x0 (lidx_main_v8 (ix2 n o) j) * val_main_v7 (F := Ideal) x1 (ridx_main_v8 (ix2 n o) j)
      = eabs (val_main_v2 (F := Ideal) x0 (ix2 n j)) * eabs (x1 (ix2 o j)) := by
  rw [val_main_v5_apply, val_main_v7_apply, val_main_v6_apply, lhs_second, rhs_second]
  rfl

/-- THE REFERENCE IS G: its last stage, as a function of the two arguments, is the target function of the flattened
    input (the reference's own first stage) and the weight. -/
theorem result_eq : val_main_v11 (F := Ideal) x0 x1 = G (val_main_v0 (F := Ideal) x0) x1 := by
  funext i
  obtain ⟨n, o, rfl⟩ : ∃ (n : Fin 8192) (o : Fin 2048), i = ix2 n o := ⟨i 0, i 1, eq_ix2 i⟩
  rw [val_main_v11_apply, val_main_v10_apply, val_main_cst_0_apply, val_main_v9_apply, val_main_v4_apply, val_main_v8_apply]
  rw [Finset.sum_congr rfl (fun j _ => term_first x0 x1 n o j), Finset.sum_congr rfl (fun j _ => term_second x0 x1 n o j)]
  exact split_last (n := 2048)
    (fun j => val_main_v2 (F := Ideal) x0 (ix2 n j)) (fun j => x1 (ix2 o j))
    (fun k => val_main_v0 (F := Ideal) x0 (ix2 n k)) (fun k => x1 (ix2 o k.castSucc)) (x1 (ix2 o (Fin.last 2048)))
    (fun k => concat_left x0 n k) (fun _ => rfl) (concat_last x0 n) rfl

end Cert.HalfRelu.Ref

end
-- ==== Proof.lean ====
/-
  A dense layer with a rectifier inside the sum,  y(n,o) = Σ_j relu(W(o,j) · X'(n,j)),  X' = [X | 1],  computed through
  relu(w·v) = ½·(w·v + |w|·|v|) as two matrix products. With A = Σ_{k<2048} X(n,k)·W(o,k), B the same sum over absolute
  values and b = W(o,2048) the bias column:

    the kernel    prepares W, |W| and the row ½·(b + |b|) on the host, and per block of 1024 rows stores ½·(A + B) + ½·(b + |b|);
    the reference appends the column of ones and forms ½·(Σ_{j<2049} X'·W + Σ_{j<2049} |X'|·|W|) = ½·((A + 1·b) + (B + |1|·|b|)).

  On the extended reals these are one function G of the flattened input and the weight (Proof/Target.lean: the last term
  of each sum split off, 1·b = b, |1| = 1, + commutative and associative, and the finite nonnegative ½ distributing over
  a sum) — at every input, so the precondition is not opened. The reference's run is G (Proof/RefIsTarget.lean); the
  kernel's result array is G block by block and hence everywhere (Proof/StagedArrays.lean, Proof/BlockValue.lean,
  Proof/ArrayValue.lean). The idealization changed no operation, so there is nothing to preserve; the three frames are
  the programs' runs with the result dropped.
-/
import proofs.«156407_j59313498358108_2_alg».proof.Defs
import proofs.«156407_j59313498358108_2_alg».proof.Proof.Gen.Kernel
import proofs.«156407_j59313498358108_2_alg».proof.Proof.Gen.Kernel.Skeleton
import proofs.«156407_j59313498358108_2_alg».proof.Proof.Gen.Kernel.Launch
import proofs.«156407_j59313498358108_2_alg».proof.Proof.Gen.Kernel.Points
import proofs.«156407_j59313498358108_2_alg».proof.Proof.Gen.Kernel.Frame
import proofs.«156407_j59313498358108_2_alg».proof.Proof.Gen.KernelIdeal
import proofs.«156407_j59313498358108_2_alg».proof.Proof.Gen.KernelIdeal.Skeleton
import proofs.«156407_j59313498358108_2_alg».proof.Proof.Gen.KernelIdeal.Launch
import proofs.«156407_j59313498358108_2_alg».proof.Proof.Gen.KernelIdeal.Points
import proofs.«156407_j59313498358108_2_alg».proof.Proof.Gen.KernelIdeal.Frame
import proofs.«156407_j59313498358108_2_alg».proof.Proof.Gen.ReferenceIdeal
import proofs.«156407_j59313498358108_2_alg».proof.Proof.Gen.Pre_finite_inputs
import proofs.«156407_j59313498358108_2_alg».proof.Proof.Gen.KernelIdeal.Value
import proofs.«156407_j59313498358108_2_alg».proof.Proof.Gen.ReferenceIdeal.Run
import proofs.«156407_j59313498358108_2_alg».proof.Proof.Gen.ReferenceIdeal.Read
import proofs.«156407_j59313498358108_2_alg».proof.Proof.ArrayValue
import proofs.«156407_j59313498358108_2_alg».proof.Proof.RefIsTarget
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the result G of the flattened first argument
    and the second: the kernel's array block by block, the reference's last stage by the law that splits off the column
    of ones. -/
theorem algebraic : Cert.algebraic_KernelIdeal_ReferenceIdeal := by
  intro m ρ m' ρ' _ hagree
  refine ⟨fun c => Cert.HalfRelu.G (Cert.HalfRelu.Staged.Xf m c) (Cert.HalfRelu.Staged.Wt m c), Cert.HalfRelu.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.HalfRelu.Ref.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
